-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x4096 : S_.BroadcastsInDim S1x4096 (![] : Fin 0 → Fin S1x4096.rank)
  reducesTo_S1x4096_S_d0_1 : S1x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1x1024 .f32) (main_arg12 : FVec F S1x4096 .f32) (main_arg13 : FVec F S4096 .f32) (main_v48 : IVec S_ 1) (main_v49 : FVec F S1x1024 .f32) (main_v50 : FVec F S1x1024 .f32) : IVec S_ 1 :=
  let main_v51 : IVec S1x1024 1 := cmpf .olt main_v49 main_v50
  let main_c_19 : IVec S_ 1 := constantI S_ 1 1#1
  let main_v52 : IVec S_ 1 := (fun x v => Host.reduce IntOp.andi x v reducesTo_S1x1024_S_d0_1 h_S_) main_v51 main_c_19
  let main_v53 : IVec S_ 1 := andi main_v48 main_v52
  let main_v54 : FVec F S1x1024 .f32 := Host.absf main_arg11
  let main_cst_20 : FVec F S_ .f32 := constant S_ .f32 0x7F800000#32
  let main_v55 : FVec F S1x1024 .f32 := broadcastInDim S1x1024 ![] bcast_S_S1x1024 main_cst_20
  let main_v56 : IVec S1x1024 1 := cmpf .olt main_v54 main_v55
  let main_c_21 : IVec S_ 1 := constantI S_ 1 1#1
  let main_v57 : IVec S_ 1 := (fun x v => Host.reduce IntOp.andi x v reducesTo_S1x1024_S_d0_1 h_S_) main_v56 main_c_21
  let main_v58 : IVec S_ 1 := andi main_v53 main_v57
  let main_v59 : FVec F S1x4096 .f32 := Host.absf main_arg12
  let main_cst_22 : FVec F S_ .f32 := constant S_ .f32 0x7F800000#32
  let main_v60 : FVec F S1x4096 .f32 := broadcastInDim S1x4096 ![] bcast_S_S1x4096 main_cst_22
  let main_v61 : IVec S1x4096 1 := cmpf .olt main_v59 main_v60
  let main_c_23 : IVec S_ 1 := constantI S_ 1 1#1
  let main_v62 : IVec S_ 1 := (fun x v => Host.reduce IntOp.andi x v reducesTo_S1x4096_S_d0_1 h_S_) main_v61 main_c_23
  let main_v63 : IVec S_ 1 := andi main_v58 main_v62
  let main_v64 : FVec F S4096 .f32 := Host.absf main_arg13
  let main_cst_24 : FVec F S_ .f32 := constant S_ .f32 0x7F800000#32
  let main_v65 : FVec F S4096 .f32 := broadcastInDim S4096 ![] bcast_S_S4096 main_cst_24
  let main_v66 : IVec S4096 1 := cmpf .olt main_v64 main_v65
  let main_c_25 : IVec S_ 1 := constantI S_ 1 1#1
  let main_v67 : IVec S_ 1 := (fun x v => Host.reduce IntOp.andi x v reducesTo_S4096_S_d0 h_S_) main_v66 main_c_25
  fn_part4 (F := F) main_v63 main_v67

def fn_part2 {F : FTy → Type} [FloatOps F] (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1x4096 .f32 := Host.absf main_arg9
  let main_cst_16 : FVec F S_ .f32 := constant S_ .f32 0x7F800000#32
  let main_v45 : FVec F S1x4096 .f32 := broadcastInDim S1x4096 ![] bcast_S_S1x4096 main_cst_16
  let main_v46 : IVec S1x4096 1 := cmpf .olt main_v44 main_v45
  let main_c_17 : IVec S_ 1 := constantI S_ 1 1#1
  let main_v47 : IVec S_ 1 := (fun x v => Host.reduce IntOp.andi x v reducesTo_S1x4096_S_d0_1 h_S_) main_v46 main_c_17
  let main_v48 : IVec S_ 1 := andi main_v43 main_v47
  let main_v49 : FVec F S1x1024 .f32 := Host.absf main_arg10
  let main_cst_18 : FVec F S_ .f32 := constant S_ .f32 0x7F800000#32
  let main_v50 : FVec F S1x1024 .f32 := broadcastInDim S1x1024 ![] bcast_S_S1x1024 main_cst_18
  fn_part3 (F := F) main_arg11 main_arg12 main_arg13 main_v48 main_v49 main_v50

def fn_part1 {F : FTy → Type} [FloatOps F] (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x4096 .f32 := Host.absf main_arg6
  let main_cst_10 : FVec F S_ .f32 := constant S_ .f32 0x7F800000#32
  let main_v30 : FVec F S1x4096 .f32 := broadcastInDim S1x4096 ![] bcast_S_S1x4096 main_cst_10
  let main_v31 : IVec S1x4096 1 := cmpf .olt main_v29 main_v30
  let main_c_11 : IVec S_ 1 := constantI S_ 1 1#1
  let main_v32 : IVec S_ 1 := (fun x v => Host.reduce IntOp.andi x v reducesTo_S1x4096_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2x4096x4096 .f32) (main_arg1 : FVec F S1024x4096 .f32) (main_arg2 : FVec F S4096x1024 .f32) (main_arg3 : FVec F S1x4096 .f32) (main_arg4 : FVec F S1x1024 .f32) (main_arg5 : FVec F S1x1024 .f32) (main_arg6 : FVec F S1x4096 .f32) (main_arg7 : FVec F S1024x4096 .f32) (main_arg8 : FVec F S4096x1024 .f32) (main_arg9 : FVec F S1x4096 .f32) (main_arg10 : FVec F S1x1024 .f32) (main_arg11 : FVec F S1x1024 .f32) (main_arg12 : FVec F S1x4096 .f32) (main_arg13 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_arg5 main_arg6 main_arg7 main_arg8 main_arg9 main_arg10 main_arg11 main_arg12 main_arg13 main_v13 main_v16
-- ==== Kernel.lean ====
abbrev S2x4096x4096 : Shape := ⟨3, ![2, 4096, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S4096x1 : Shape := ⟨2, ![4096, 1]⟩
abbrev S2048x4096 : Shape := ⟨2, ![2048, 4096]⟩
abbrev S4096x2048 : Shape := ⟨2, ![4096, 2048]⟩
abbrev S64x4096 : Shape := ⟨2, ![64, 4096]⟩
abbrev S64x2048 : Shape := ⟨2, ![64, 2048]⟩

abbrev nBuf : Space → Nat
  | .hbm => 44
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S4096x1024, .f32⟩
  | .hbm, ⟨19, _⟩ => ⟨S1x1024, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x4096, .bf16⟩
  | .hbm, ⟨26, _⟩ => ⟨S4096x1024, .bf16⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S4096x1024, .f32⟩
  | .hbm, ⟨31, _⟩ => ⟨S1x1024, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x4096, .bf16⟩
  | .hbm, ⟨38, _⟩ => ⟨S4096x1024, .bf16⟩
  | .hbm, ⟨39, _⟩ => ⟨S2048x4096, .bf16⟩
  | .hbm, ⟨40, _⟩ => ⟨S4096x2048, .bf16⟩
  | .hbm, ⟨41, _⟩ => ⟨S1x4096, .f32⟩
  | .hbm, ⟨42, _⟩ => ⟨S8192x4096, .f32⟩
  | .hbm, ⟨43, _⟩ => ⟨S2x4096x4096, .f32⟩
  | .local _ .vmem, ⟨0, _⟩ => ⟨S64x4096, .f32⟩
  | .local _ .vmem, ⟨1, _⟩ => ⟨S64x4096, .f32⟩
  | .local _ .vmem, ⟨2, _⟩ => ⟨S2048x4096, .bf16⟩
  | .local _ .vmem, ⟨3, _⟩ => ⟨S4096x2048, .bf16⟩
  | .local _ .vmem, ⟨4, _⟩ => ⟨S1x4096, .f32⟩
  | .local _ .vmem, ⟨5, _⟩ => ⟨S64x4096, .f32⟩
  | .local _ .vmem, ⟨6, _⟩ => ⟨S64x4096, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x4096x4096_S8192x4096 : S2x4096x4096.ShapeCasts S8192x4096
  bcast_S1x4096_S1024x4096_0_1 : S1x4096.BroadcastsInDim S1024x4096 (![0, 1] : Fin 2 → Fin S1024x4096.rank)
  shapeCasts_S1x4096_S4096x1 : S1x4096.ShapeCasts S4096x1
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  bitsLt_bf16_f32 : FTy.bits .bf16 < FTy.bits .f32
  concatenates_S1024x4096_S1024x4096_S2048x4096_d0 : Shape.Concatenates [S1024x4096, S1024x4096] S2048x4096 0
  concatenates_S4096x1024_S4096x1024_S4096x2048_d1 : Shape.Concatenates [S4096x1024, S4096x1024] S4096x2048 1
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S64x4096 : S1x4096.Broadcasts S64x4096
  shapeCasts_S8192x4096_S2x4096x4096 : S8192x4096.ShapeCasts S2x4096x4096
  dot_S64x4096_S2048x4096_S64x2048_1_1_0_0_n_n_wf : DotDims.WF S64x4096 S2048x4096 S64x2048 [1] [1] [0] [0] [] []
  dot_S64x2048_S4096x2048_S64x4096_1_1_0_0_n_n_wf : DotDims.WF S64x2048 S4096x2048 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S8192x4096.size a
  hwx0_0 : ∀ i : grid0.Coords, EltTy.bits .f32 = 32 ∨ (Rect.block (s := S8192x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S2048x4096.size a
  hwx0_1 : ∀ i : grid0.Coords, EltTy.bits .bf16 = 32 ∨ (Rect.block (s := S2048x4096) S2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2048.size a ≤ S4096x2048.size a
  hwx0_2 : ∀ i : grid0.Coords, EltTy.bits .bf16 = 32 ∨ (Rect.block (s := S4096x2048) S4096x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S8192x4096.size a
  hwx0_4 : ∀ i : grid0.Coords, EltTy.bits .f32 = 32 ∨ (Rect.block (s := S8192x4096) S64x4096.size (cc0_transform_4 i) (hinb0_4 i)).WholeWords (EltTy.packing .f32)

variable [Facts₀]

def dot_S64x4096_S2048x4096_S64x2048_1_1_0_0_n_n : DotDims S64x4096 S2048x4096 S64x2048 where
  lhsContracting := [1]
  rhsContracting := [1]
  lhsNonContracting := [0]
  rhsNonContracting := [0]
  lhsBatch := []
  rhsBatch := []
  wf := dot_S64x4096_S2048x4096_S64x2048_1_1_0_0_n_n_wf
def dot_S64x2048_S4096x2048_S64x4096_1_1_0_0_n_n : DotDims S64x2048 S4096x2048 S64x4096 where
  lhsContracting := [1]
  rhsContracting := [1]
  lhsNonContracting := [0]
  rhsNonContracting := [0]
  lhsBatch := []
  rhsBatch := []
  wf := dot_S64x2048_S4096x2048_S64x4096_1_1_0_0_n_n_wf

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4096x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S64x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x4096x4096 : Shape := ⟨3, ![2, 4096, 4096]⟩
abbrev S1024x4096 : Shape := ⟨2, ![1024, 4096]⟩
abbrev S4096x1024 : Shape := ⟨2, ![4096, 1024]⟩
abbrev S1x4096 : Shape := ⟨2, ![1, 4096]⟩
abbrev S1x1024 : Shape := ⟨2, ![1, 1024]⟩
abbrev S4096 : Shape := ⟨1, ![4096]⟩
abbrev S8192x4096 : Shape := ⟨2, ![8192, 4096]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1024x4096, .f32⟩
  | .hbm, ⟨2, _⟩ => ⟨S4096x1024, .f32⟩
  | .hbm, ⟨3, _⟩ => ⟨S1x4096, .f32⟩
  | .hbm, ⟨4, _⟩ => ⟨S1x1024, .f32⟩
  | .hbm, ⟨5, _⟩ => ⟨S1x1024, .f32⟩
  | .hbm, ⟨6, _⟩ => ⟨S1x4096, .f32⟩
  | .hbm, ⟨7, _⟩ => ⟨S1024x4096, .f32⟩
  | .hbm, ⟨8, _⟩ => ⟨S4096x1024, .f32⟩
  | .hbm, ⟨9, _⟩ => ⟨S1x4096, .f32⟩
  | .hbm, ⟨10, _⟩ => ⟨S1x1024, .f32⟩
  | .hbm, ⟨11, _⟩ => ⟨S1x1024, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1024x4096, .f32⟩
  | .hbm, ⟨16, _⟩ => ⟨S4096x1024, .f32⟩
  | .hbm, ⟨17, _⟩ => ⟨S8192x4096, .f32⟩
  | .hbm, ⟨18, _⟩ => ⟨S8192x4096, .f32⟩
  | .hbm, ⟨19, _⟩ => ⟨S4096x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S1024x4096, .f32⟩
  | .hbm, ⟨29, _⟩ => ⟨S4096x1024, .f32⟩
  | .hbm, ⟨30, _⟩ => ⟨S8192x4096, .f32⟩
  | .hbm, ⟨31, _⟩ => ⟨S8192x4096, .f32⟩
  | .hbm, ⟨32, _⟩ => ⟨S4096x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096, .f32⟩
  | .hbm, ⟨43, _⟩ => ⟨S8192x4096, .f32⟩
  | .hbm, ⟨44, _⟩ => ⟨S8192x4096, .f32⟩
  | .hbm, ⟨45, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  shapeCasts_S2x4096x4096_S8192x4096 : S2x4096x4096.ShapeCasts S8192x4096
  bcast_S1x4096_S8192x4096_0_1 : S1x4096.BroadcastsInDim S8192x4096 (![0, 1] : Fin 2 → Fin S8192x4096.rank)
  transposes_S1024x4096_S4096x1024_1_0 : S1024x4096.Transposes [1, 0] S4096x1024
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  shapeCasts_S8192x4096_S2x4096x4096 : S8192x4096.ShapeCasts S2x4096x4096
  dot_S8192x4096_S4096x1024_S8192x1024_1_0_0_1_n_n_wf : DotDims.WF S8192x4096 S4096x1024 S8192x1024 [1] [0] [0] [1] [] []
  dot_S8192x1024_S1024x4096_S8192x4096_1_0_0_1_n_n_wf : DotDims.WF S8192x1024 S1024x4096 S8192x4096 [1] [0] [0] [1] [] []

variable [Facts₀]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.BodyValue.lean ====
/-
  The kernel body's arithmetic, read at one entry of its output block, at the ideal instance.

  A grid point holds a block of 64 rows of the flattened input `x0`, the whole first weight matrix `x1`
  (2048 × 4096: hidden entry `s`, input feature `k`), the whole second weight matrix `x2` (4096 × 2048:
  output column `o`, hidden entry `s`) and the bias row `x3`. It contracts the input features, then the
  hidden entries, and adds the bias:
      out (r, o) = ∑ₛ ( ∑ₖ x0 (r, k) · x1 (s, k) ) · x2 (o, s) + x3 (0, o).
  At the ideal instance a change of float format is the identity and a matrix product into a zero
  accumulator is the plain sum of products, so the body IS that expression.
-/
import proofs.«174910_j8615704396412_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-! ## The first product: input features contracted -/

theorem first_lhs_row (j : S64x2048.Idx) (q : dot_S64x4096_S2048x4096_S64x2048_1_1_0_0_n_n.contr.Idx) :
    (dot_S64x4096_S2048x4096_S64x2048_1_1_0_0_n_n.lhsIdx j q 0).val = (j 0).val := by
  unfold DotDims.lhsIdx
  rw [dif_neg (show ¬(0 : Fin S64x4096.rank) ∈ dot_S64x4096_S2048x4096_S64x2048_1_1_0_0_n_n.lhsBatch by decide),
    dif_pos (show (0 : Fin S64x4096.rank) ∈ dot_S64x4096_S2048x4096_S64x2048_1_1_0_0_n_n.lhsNonContracting by decide)]
  rfl

theorem first_rhs_row (j : S64x2048.Idx) (q : dot_S64x4096_S2048x4096_S64x2048_1_1_0_0_n_n.contr.Idx) :
    (dot_S64x4096_S2048x4096_S64x2048_1_1_0_0_n_n.rhsIdx j q 0).val = (j 1).val := by
  unfold DotDims.rhsIdx
  rw [dif_neg (show ¬(0 : Fin S2048x4096.rank) ∈ dot_S64x4096_S2048x4096_S64x2048_1_1_0_0_n_n.rhsBatch by decide),
    dif_pos (show (0 : Fin S2048x4096.rank) ∈ dot_S64x4096_S2048x4096_S64x2048_1_1_0_0_n_n.rhsNonContracting by decide)]
  rfl

/-- Entry (r, s) of the first product: row `r` of the left operand against row `s` of the right one,
    summed over the 4096 input features. -/
theorem first_product_apply (A : FVec Ideal S64x4096 .bf16) (B : FVec Ideal S2048x4096 .bf16) (r : Fin 64) (s : Fin 2048) :
    FloatOps.matmul dot_S64x4096_S2048x4096_S64x2048_1_1_0_0_n_n none A B (constant S64x2048 .f32 0x00000000#32) (ix2 r s)
      = ∑ k : Fin 4096, A (ix2 r k) * B (ix2 s k) := by
  rw [Ideal.matmul_constant_zero_apply,
    ← Equiv.sum_comp (contrEquiv1 dot_S64x4096_S2048x4096_S64x2048_1_1_0_0_n_n 4096 rfl rfl).symm]
  refine Finset.sum_congr rfl fun k _ => ?_
  have hk := contrEquiv1_symm_val dot_S64x4096_S2048x4096_S64x2048_1_1_0_0_n_n 4096 rfl rfl k
  have el : dot_S64x4096_S2048x4096_S64x2048_1_1_0_0_n_n.lhsIdx (ix2 r s)
      ((contrEquiv1 dot_S64x4096_S2048x4096_S64x2048_1_1_0_0_n_n 4096 rfl rfl).symm k) = ix2 r k :=
    funext fun a => Fin.ext (by
      match a with
      | ⟨0, _⟩ => exact first_lhs_row _ _
      | ⟨1, _⟩ => exact (dot_S64x4096_S2048x4096_S64x2048_1_1_0_0_n_n.lhsIdx_val_of_single rfl _ _).trans hk)
  have er : dot_S64x4096_S2048x4096_S64x2048_1_1_0_0_n_n.rhsIdx (ix2 r s)
      ((contrEquiv1 dot_S64x4096_S2048x4096_S64x2048_1_1_0_0_n_n 4096 rfl rfl).symm k) = ix2 s k :=
    funext fun a => Fin.ext (by
      match a with
      | ⟨0, _⟩ => exact first_rhs_row _ _
      | ⟨1, _⟩ => exact (dot_S64x4096_S2048x4096_S64x2048_1_1_0_0_n_n.rhsIdx_val_of_single rfl _ _).trans hk)
  rw [el, er]

/-! ## The second product: hidden entries contracted -/

theorem second_lhs_row (j : S64x4096.Idx) (q : dot_S64x2048_S4096x2048_S64x4096_1_1_0_0_n_n.contr.Idx) :
    (dot_S64x2048_S4096x2048_S64x4096_1_1_0_0_n_n.lhsIdx j q 0).val = (j 0).val := by
  unfold DotDims.lhsIdx
  rw [dif_neg (show ¬(0 : Fin S64x2048.rank) ∈ dot_S64x2048_S4096x2048_S64x4096_1_1_0_0_n_n.lhsBatch by decide),
    dif_pos (show (0 : Fin S64x2048.rank) ∈ dot_S64x2048_S4096x2048_S64x4096_1_1_0_0_n_n.lhsNonContracting by decide)]
  rfl

theorem second_rhs_row (j : S64x4096.Idx) (q : dot_S64x2048_S4096x2048_S64x4096_1_1_0_0_n_n.contr.Idx) :
    (dot_S64x2048_S4096x2048_S64x4096_1_1_0_0_n_n.rhsIdx j q 0).val = (j 1).val := by
  unfold DotDims.rhsIdx
  rw [dif_neg (show ¬(0 : Fin S4096x2048.rank) ∈ dot_S64x2048_S4096x2048_S64x4096_1_1_0_0_n_n.rhsBatch by decide),
    dif_pos (show (0 : Fin S4096x2048.rank) ∈ dot_S64x2048_S4096x2048_S64x4096_1_1_0_0_n_n.rhsNonContracting by decide)]
  rfl

/-- Entry (r, o) of the second product: row `r` of the left operand against row `o` of the right one,
    summed over the 2048 hidden entries. -/
theorem second_product_apply (A : FVec Ideal S64x2048 .bf16) (B : FVec Ideal S4096x2048 .bf16) (r : Fin 64) (o : Fin 4096) :
    FloatOps.matmul dot_S64x2048_S4096x2048_S64x4096_1_1_0_0_n_n none A B (constant S64x4096 .f32 0x00000000#32) (ix2 r o)
      = ∑ s : Fin 2048, A (ix2 r s) * B (ix2 o s) := by
  rw [Ideal.matmul_constant_zero_apply,
    ← Equiv.sum_comp (contrEquiv1 dot_S64x2048_S4096x2048_S64x4096_1_1_0_0_n_n 2048 rfl rfl).symm]
  refine Finset.sum_congr rfl fun k _ => ?_
  have hk := contrEquiv1_symm_val dot_S64x2048_S4096x2048_S64x4096_1_1_0_0_n_n 2048 rfl rfl k
  have el : dot_S64x2048_S4096x2048_S64x4096_1_1_0_0_n_n.lhsIdx (ix2 r o)
      ((contrEquiv1 dot_S64x2048_S4096x2048_S64x4096_1_1_0_0_n_n 2048 rfl rfl).symm k) = ix2 r k :=
    funext fun a => Fin.ext (by
      match a with
      | ⟨0, _⟩ => exact second_lhs_row _ _
      | ⟨1, _⟩ => exact (dot_S64x2048_S4096x2048_S64x4096_1_1_0_0_n_n.lhsIdx_val_of_single rfl _ _).trans hk)
  have er : dot_S64x2048_S4096x2048_S64x4096_1_1_0_0_n_n.rhsIdx (ix2 r o)
      ((contrEquiv1 dot_S64x2048_S4096x2048_S64x4096_1_1_0_0_n_n 2048 rfl rfl).symm k) = ix2 o k :=
    funext fun a => Fin.ext (by
      match a with
      | ⟨0, _⟩ => exact second_rhs_row _ _
      | ⟨1, _⟩ => exact (dot_S64x2048_S4096x2048_S64x4096_1_1_0_0_n_n.rhsIdx_val_of_single rfl _ _).trans hk)
  rw [el, er]

/-! ## The bias row, broadcast down the block -/

/-- The bias row broadcast to the block reads, at (r, o), the row's entry `o`. -/
theorem bias_row_apply (x : FVec Ideal S1x4096 .f32) (r : Fin 64) (o : Fin 4096) :
    broadcastTo S64x4096 x broadcasts_S1x4096_S64x4096 (ix2 r o) = x (ix2 (0 : Fin 1) o) :=
  broadcastTo_apply x broadcasts_S1x4096_S64x4096 (ix2 r o) (ix2 (0 : Fin 1) o) (fun a => by
    match a with
    | ⟨0, _⟩ => show (0 : Nat) = if (1 : Nat) = 1 then 0 else _; rw [if_pos rfl]
    | ⟨1, _⟩ => show o.val = if (4096 : Nat) = 1 then 0 else o.val; rw [if_neg (by decide)])

/-! ## The body -/

/-- THE BODY at entry (r, o) of the output block. -/
theorem payload_apply (x0 : Vec Ideal S64x4096 .f32) (x1 : Vec Ideal S2048x4096 .bf16) (x2 : Vec Ideal S4096x2048 .bf16)
    (x3 : Vec Ideal S1x4096 .f32) (r : Fin 64) (o : Fin 4096) :
    k0_pay1 (F := Ideal) x0 x1 x2 x3 (ix2 r o)
      = (∑ s : Fin 2048, (∑ k : Fin 4096, x0 (ix2 r k) * x1 (ix2 s k)) * x2 (ix2 o s)) + x3 (ix2 (0 : Fin 1) o) := by
  unfold k0_pay1
  simp only [shapeCast_self]
  refine (addf_apply _ _ (ix2 r o)).trans ?_
  rw [bias_row_apply]
  refine congrArg (· + x3 (ix2 (0 : Fin 1) o)) ?_
  refine (second_product_apply _ _ r o).trans ?_
  refine Finset.sum_congr rfl fun s _ => ?_
  refine congrArg (· * x2 (ix2 o s)) ?_
  exact first_product_apply _ _ r s

end Cert.KernelIdeal.Body

end
-- ==== Proof.FusedSpec.lean ====
/-
  The common value of the two programs on the flattened [8192, 4096] array, as ONE function of four
  arrays: the flattened input `X`, the first folded weight matrix `W1` (2048 hidden entries × 4096 input
  features), the second folded weight matrix `W2` (4096 output columns × 2048 hidden entries) and the
  bias row `B`:
      fused X W1 W2 B (n, o) = ∑ₛ ( ∑ₖ X (n, k) · W1 (s, k) ) · W2 (o, s) + B (0, o).
-/
import Idealize.ShloMosaic.Lib.ValueIdx
import Idealize.ShloMosaic.PureOps.Ideal

noncomputable section

namespace Cert.TwoPath

open Idealize.ShloMosaic Idealize.ShloMosaic.ValueIdx

/-- Entry (n, o) of the fused two-product expression. -/
def fusedAt (X : (⟨2, ![8192, 4096]⟩ : Shape).Idx → EReal) (W1 : (⟨2, ![2048, 4096]⟩ : Shape).Idx → EReal)
    (W2 : (⟨2, ![4096, 2048]⟩ : Shape).Idx → EReal) (B : (⟨2, ![1, 4096]⟩ : Shape).Idx → EReal)
    (n : Fin 8192) (o : Fin 4096) : EReal :=
  (∑ s : Fin 2048, (∑ k : Fin 4096, X (ix2 n k) * W1 (ix2 s k)) * W2 (ix2 o s)) + B (ix2 (0 : Fin 1) o)

/-- The whole array. -/
def fused (X : (⟨2, ![8192, 4096]⟩ : Shape).Idx → EReal) (W1 : (⟨2, ![2048, 4096]⟩ : Shape).Idx → EReal)
    (W2 : (⟨2, ![4096, 2048]⟩ : Shape).Idx → EReal) (B : (⟨2, ![1, 4096]⟩ : Shape).Idx → EReal) :
    (⟨2, ![8192, 4096]⟩ : Shape).Idx → EReal :=
  fun i => fusedAt X W1 W2 B (i 0) (i 1)

end Cert.TwoPath

end
-- ==== Proof.KernelArray.lean ====
/-
  From blocks to the array: what the kernel's output array holds after the run.

  The grid has 128 points; point `t` stages rows 64·t … 64·t + 63 of the flattened input (all 4096
  columns), the two whole weight matrices and the bias row, and writes back rows 64·t … 64·t + 63 of the
  output. So what point `t` writes back is block `t` of ONE whole-array function — the fused expression of
  the four arrays as the region finds them — and the 128 blocks tile the 8192 rows: the output array ends
  holding that function.
-/
import proofs.«174910_j8615704396412_2_alg».proof.Proof.Gen.KernelIdeal.Frame
import proofs.«174910_j8615704396412_2_alg».proof.Proof.BodyValue
import proofs.«174910_j8615704396412_2_alg».proof.Proof.FusedSpec
import Idealize.ShloMosaic.Lib.Pipeline.Value

set_option maxRecDepth 16384

noncomputable section

namespace Cert.KernelIdeal.OutArray

open Cert.KernelIdeal Cert.KernelIdeal.Gen Idealize.ShloMosaic Idealize.ShloMosaic.TcCoe Idealize.SL.Sem
open Idealize.ShloMosaic.ValueIdx
open Idealize.ShloMosaic.Pipeline (Dat)
open Cert.TwoPath (fused fusedAt)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 128 grid points: the input's and the output's row blocks move
    together (block `t` at point `t`), every other block index is zero. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry of a block against one entry of the array: if the staged input block holds row `n` of `X`
    in its row `r`, and the three resident operands are the whole arrays, the body's entry (r, o) is the
    fused expression's entry (n, o). -/
theorem block_entry (x0 : Vec Ideal S64x4096 .f32) (x1 : Vec Ideal S2048x4096 .bf16) (x2 : Vec Ideal S4096x2048 .bf16)
    (x3 : Vec Ideal S1x4096 .f32) (X : S8192x4096.Idx → EReal) (r : Fin 64) (n : Fin 8192) (o : Fin 4096)
    (hrow : ∀ k : Fin 4096, x0 (ix2 r k) = X (ix2 n k)) :
    k0_pay1 (F := Ideal) x0 x1 x2 x3 (ix2 r o) = fusedAt X x1 x2 x3 n o := by
  rw [Cert.KernelIdeal.Body.payload_apply]
  unfold fusedAt
  refine congrArg (· + x3 (ix2 (0 : Fin 1) o)) ?_
  refine Finset.sum_congr rfl fun s _ => ?_
  refine congrArg (· * x2 (ix2 o s)) ?_
  exact Finset.sum_congr rfl fun k _ => by rw [hrow k]

/-- A resident window (block index zero on both axes, the block the whole array) stages the array itself. -/
theorem resident1 (c : Dev nD) (t : Fin cfg0.N) : iblk m c 1 t = V m c main_v25 := by
  obtain ⟨-, -, e2, e3, -⟩ := index_maps t
  funext y
  show V m c main_v25 (((cfg0.win 1).blk t).view.emb y) = V m c main_v25 y
  refine congrArg (V m c main_v25) (funext fun a => Fin.ext ?_)
  match a with
  | ⟨0, _⟩ => show win0_1.index t (0 : Fin 2) * 2048 + 1 * (y 0).val = (y 0).val; omega
  | ⟨1, _⟩ => show win0_1.index t (1 : Fin 2) * 4096 + 1 * (y 1).val = (y 1).val; omega

theorem resident2 (c : Dev nD) (t : Fin cfg0.N) : iblk m c 2 t = V m c main_v26 := by
  obtain ⟨-, -, -, -, e4, e5, -⟩ := index_maps t
  funext y
  show V m c main_v26 (((cfg0.win 2).blk t).view.emb y) = V m c main_v26 y
  refine congrArg (V m c main_v26) (funext fun a => Fin.ext ?_)
  match a with
  | ⟨0, _⟩ => show win0_2.index t (0 : Fin 2) * 4096 + 1 * (y 0).val = (y 0).val; omega
  | ⟨1, _⟩ => show win0_2.index t (1 : Fin 2) * 2048 + 1 * (y 1).val = (y 1).val; omega

theorem resident3 (c : Dev nD) (t : Fin cfg0.N) : iblk m c 3 t = V m c main_v27 := by
  obtain ⟨-, -, -, -, -, -, e6, e7, -⟩ := index_maps t
  funext y
  show V m c main_v27 (((cfg0.win 3).blk t).view.emb y) = V m c main_v27 y
  refine congrArg (V m c main_v27) (funext fun a => Fin.ext ?_)
  match a with
  | ⟨0, _⟩ => show win0_3.index t (0 : Fin 2) * 1 + 1 * (y 0).val = (y 0).val; omega
  | ⟨1, _⟩ => show win0_3.index t (1 : Fin 2) * 4096 + 1 * (y 1).val = (y 1).val; omega

/-- The input window's block at point `t`, at (r, k), is the flattened input at (64·t + r, k). -/
theorem input_block (c : Dev nD) (t : Fin cfg0.N) (r : Fin 64) (k : Fin 4096) (n : Fin 8192) (hn : n.val = t.val * 64 + r.val) :
    iblk m c 0 t (ix2 r k) = V m c main_v0 (ix2 n k) := by
  obtain ⟨e0, e1, -⟩ := index_maps t
  show V m c main_v0 (((cfg0.win 0).blk t).view.emb (ix2 r k)) = V m c main_v0 (ix2 n k)
  refine congrArg (V m c main_v0) (funext fun a => Fin.ext ?_)
  match a with
  | ⟨0, _⟩ => show win0_0.index t (0 : Fin 2) * 64 + 1 * r.val = n.val; omega
  | ⟨1, _⟩ => show win0_0.index t (1 : Fin 2) * 4096 + 1 * k.val = k.val; omega

/-- WHAT POINT `t` WRITES BACK is block `t` of the fused expression of the four arrays as the region finds them. -/
theorem flushed_eq (c : Dev nD) (t : Fin cfg0.N) :
    (dats m 0 c).flushed 4 t = ((cfg0.win 4).blk t).view.read (Elt Ideal)
      (fused (V m c main_v0) (V m c main_v25) (V m c main_v26) (V m c main_v27)) := by
  show (cfg0.win 4).cut (grid0.coords t) ((dats m 0 c).after 4 t) = _
  rw [after0_4]
  unfold out0_4
  rw [View.canon_unit_zero zero_offsets]
  simp only [View.ld_unit_zero (S := S64x4096) zero_offsets, View.ld_unit_zero (S := S2048x4096) zero_offsets,
    View.ld_unit_zero (S := S4096x2048) zero_offsets, View.ld_unit_zero (S := S1x4096) zero_offsets]
  rw [resident1, resident2, resident3]
  obtain ⟨-, -, -, -, -, -, -, -, e8, e9⟩ := index_maps t
  have hN : t.val < 128 := lt_of_lt_of_eq t.isLt (show cfg0.N = 128 from N_0)
  funext j
  obtain ⟨r, o, rfl⟩ : ∃ (r : Fin 64) (o : Fin 4096), j = ix2 r o := ⟨j 0, j 1, eq_ix2 j⟩
  have hr : r.val < 64 := r.isLt
  show k0_pay1 (F := Ideal) (iblk m c 0 t) (V m c main_v25) (V m c main_v26) (V m c main_v27) (ix2 r o)
    = fused (V m c main_v0) (V m c main_v25) (V m c main_v26) (V m c main_v27) (((cfg0.win 4).blk t).view.emb (ix2 r o))
  have hemb : ((cfg0.win 4).blk t).view.emb (ix2 r o) = ix2 (⟨t.val * 64 + r.val, by omega⟩ : Fin 8192) o :=
    funext fun a => Fin.ext (by
      match a with
      | ⟨0, _⟩ => show win0_4.index t (0 : Fin 2) * 64 + 1 * r.val = t.val * 64 + r.val; omega
      | ⟨1, _⟩ => show win0_4.index t (1 : Fin 2) * 4096 + 1 * o.val = o.val; omega)
  rw [hemb]
  exact block_entry (iblk m c 0 t) _ _ _ (V m c main_v0) r ⟨t.val * 64 + r.val, by omega⟩ o
    (fun k => input_block m c t r k _ rfl)

/-- An index of the output array is in point `t`'s block iff each coordinate is in the block's range. -/
theorem mem_blk (t : Fin cfg0.N) (i : S8192x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v28).slice (win0_4.rect t)).set ↔ _
  rw [View.set_slice_whole, Rect.mem_set_unit]
  exact Iff.rfl

/-- THE COVER: row `n` of the output is written back by point `n / 64`. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have hlt : (i 0).val / 64 < cfg0.N := by rw [show cfg0.N = 128 from N_0]; omega
  refine ⟨⟨(i 0).val / 64, hlt⟩, flush0_4 _, ?_⟩
  obtain ⟨-, -, -, -, -, -, -, -, e8, e9⟩ := index_maps ⟨(i 0).val / 64, hlt⟩
  have e8' : win0_4.index ⟨(i 0).val / 64, hlt⟩ (0 : Fin 2) = (i 0).val / 64 := e8
  rw [mem_blk]
  intro a
  match a with
  | ⟨0, _⟩ =>
    show win0_4.index ⟨(i 0).val / 64, hlt⟩ (0 : Fin 2) * 64 ≤ (i 0).val
      ∧ (i 0).val < win0_4.index ⟨(i 0).val / 64, hlt⟩ (0 : Fin 2) * 64 + 64
    omega
  | ⟨1, _⟩ =>
    show win0_4.index ⟨(i 0).val / 64, hlt⟩ (1 : Fin 2) * 4096 ≤ (i 1).val
      ∧ (i 1).val < win0_4.index ⟨(i 0).val / 64, hlt⟩ (1 : Fin 2) * 4096 + 4096
    omega

/-- THE OUTPUT ARRAY after the run is the fused expression of the four arrays as the region finds them. -/
theorem final (c : Dev nD) : (dats m 0 c).arrAt 4 cfg0.N
    = fused (V m c main_v0) (V m c main_v25) (V m c main_v26) (V m c main_v27) :=
  (dats m 0 c).arrAt_eq_of_cover 4 _ (fun t _ => flushed_eq m c t) covered

end Cert.KernelIdeal.OutArray

end
-- ==== Proof.KernelHost.lean ====
/-
  The host operations before the region: the four arrays the region stages, as functions of the arguments,
  and the two folded weight matrices read at an entry.

  For one path with sign matrices V (hidden × input) and U (output × hidden) and scale rows v2 (input), v1, u2
  (hidden), u1 (output), the host folds the scales into the weights:
      inWeights  V v2       (s, k) = sign V (s, k) · v2 (0, k)
      outWeights U u1 v1 u2 (o, s) = ( sign U (o, s) · u1 (0, o) ) · ( v1 (0, s) · u2 (0, s) )
  (a change of float format is the identity at the ideal instance). The first staged weight matrix is the two
  paths' `inWeights` one under the other (hidden entries 0 … 1023 the first path, 1024 … 2047 the second); the
  second is the two paths' `outWeights` side by side along the hidden axis. The staged input is the input
  flattened to 8192 rows, and the staged bias the bias as one row.
-/
import proofs.«174910_j8615704396412_2_alg».proof.Proof.Gen.KernelIdeal.Frame
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

/-! ## The folded weights, as the host computes them -/

/-- One path's first weight matrix: the sign matrix with the input scale folded in. -/
def inWeights (Vm : FVec Ideal S1024x4096 .f32) (v2 : FVec Ideal S1x4096 .f32) : FVec Ideal S1024x4096 .bf16 :=
  truncf .bf16 (mulf (Host.sign Vm) (broadcastInDim S1024x4096 ![0, 1] bcast_S1x4096_S1024x4096_0_1 v2)) bitsLt_bf16_f32

/-- One path's second weight matrix: the sign matrix with the output scale and the hidden scales folded in. -/
def outWeights (Um : FVec Ideal S4096x1024 .f32) (u1 : FVec Ideal S1x4096 .f32) (v1 u2 : FVec Ideal S1x1024 .f32) :
    FVec Ideal S4096x1024 .bf16 :=
  truncf .bf16 (mulf (mulf (Host.sign Um) (broadcastInDim S4096x1024 ![0, 1] bcast_S4096x1_S4096x1024_0_1
      (shapeCast S4096x1 u1 shapeCasts_S1x4096_S4096x1)))
    (broadcastInDim S4096x1024 ![0, 1] bcast_S1x1024_S4096x1024_0_1 (mulf v1 u2))) bitsLt_bf16_f32

/-- The first staged weight matrix: the two paths' first weights, one under the other. -/
def stackedIn (V₁ : FVec Ideal S1024x4096 .f32) (v2₁ : FVec Ideal S1x4096 .f32)
    (V₂ : FVec Ideal S1024x4096 .f32) (v2₂ : FVec Ideal S1x4096 .f32) : FVec Ideal S2048x4096 .bf16 :=
  concatenate S2048x4096 0 [⟨S1024x4096, inWeights V₁ v2₁⟩, ⟨S1024x4096, inWeights V₂ v2₂⟩]
    concatenates_S1024x4096_S1024x4096_S2048x4096_d0

/-- The second staged weight matrix: the two paths' second weights, side by side along the hidden axis. -/
def stackedOut (U₁ : FVec Ideal S4096x1024 .f32) (u1₁ : FVec Ideal S1x4096 .f32) (v1₁ u2₁ : FVec Ideal S1x1024 .f32)
    (U₂ : FVec Ideal S4096x1024 .f32) (u1₂ : FVec Ideal S1x4096 .f32) (v1₂ u2₂ : FVec Ideal S1x1024 .f32) :
    FVec Ideal S4096x2048 .bf16 :=
  concatenate S4096x2048 1 [⟨S4096x1024, outWeights U₁ u1₁ v1₁ u2₁⟩, ⟨S4096x1024, outWeights U₂ u1₂ v1₂ u2₂⟩]
    concatenates_S4096x1024_S4096x1024_S4096x2048_d1

/-! ## The folded weights at an entry -/

theorem inWeights_apply (Vm : FVec Ideal S1024x4096 .f32) (v2 : FVec Ideal S1x4096 .f32) (s : Fin 1024) (k : Fin 4096) :
    inWeights Vm v2 (ix2 s k) = Ideal.sign (Vm (ix2 s k)) * v2 (ix2 (0 : Fin 1) k) := by
  unfold inWeights
  refine (truncf_apply (ψ := .bf16) _ bitsLt_bf16_f32 (ix2 s k)).trans ?_
  refine (mulf_apply _ _ (ix2 s k)).trans ?_
  rw [broadcastInDim_apply _ bcast_S1x4096_S1024x4096_0_1 v2 (ix2 s k) (ix2 (0 : Fin 1) k) (fun a => by
    match a with
    | ⟨0, _⟩ => show (0 : Nat) = if (1 : Nat) = 1 then 0 else s.val; rw [if_pos rfl]
    | ⟨1, _⟩ => show k.val = if (4096 : Nat) = 1 then 0 else k.val; rw [if_neg (by decide)])]
  rfl

theorem outWeights_apply (Um : FVec Ideal S4096x1024 .f32) (u1 : FVec Ideal S1x4096 .f32) (v1 u2 : FVec Ideal S1x1024 .f32)
    (o : Fin 4096) (s : Fin 1024) :
    outWeights Um u1 v1 u2 (ix2 o s)
      = (Ideal.sign (Um (ix2 o s)) * u1 (ix2 (0 : Fin 1) o)) * (v1 (ix2 (0 : Fin 1) s) * u2 (ix2 (0 : Fin 1) s)) := by
  unfold outWeights
  refine (truncf_apply (ψ := .bf16) _ bitsLt_bf16_f32 (ix2 o s)).trans ?_
  refine (mulf_apply _ _ (ix2 o s)).trans ?_
  rw [broadcastInDim_apply _ bcast_S1x1024_S4096x1024_0_1 (mulf v1 u2) (ix2 o s) (ix2 (0 : Fin 1) s) (fun a => by
    match a with
    | ⟨0, _⟩ => show (0 : Nat) = if (1 : Nat) = 1 then 0 else o.val; rw [if_pos rfl]
    | ⟨1, _⟩ => show s.val = if (1024 : Nat) = 1 then 0 else s.val; rw [if_neg (by decide)])]
  refine congrArg (· * _) ?_
  refine (mulf_apply _ _ (ix2 o s)).trans ?_
  rw [broadcastInDim_apply _ bcast_S4096x1_S4096x1024_0_1 (shapeCast S4096x1 u1 shapeCasts_S1x4096_S4096x1) (ix2 o s)
    (ix2 o (0 : Fin 1)) (fun a => by
    match a with
    | ⟨0, _⟩ => show o.val = if (4096 : Nat) = 1 then 0 else o.val; rw [if_neg (by decide)]
    | ⟨1, _⟩ => show (0 : Nat) = if (1 : Nat) = 1 then 0 else s.val; rw [if_pos rfl])]
  rw [shapeCast_apply u1 shapeCasts_S1x4096_S4096x1 (ix2 o (0 : Fin 1)) (ix2 (0 : Fin 1) o) (by
    rw [Shape.rowMajor_val_two, Shape.rowMajor_val_two]
    show 0 * 4096 + o.val = o.val * 1 + 0
    omega)]
  rfl

/-- The stacked first weights at a hidden entry of the FIRST path. -/
theorem stackedIn_first (V₁ : FVec Ideal S1024x4096 .f32) (v2₁ : FVec Ideal S1x4096 .f32)
    (V₂ : FVec Ideal S1024x4096 .f32) (v2₂ : FVec Ideal S1x4096 .f32) (j : Fin 2048) (s : Fin 1024) (hj : j.val = s.val)
    (k : Fin 4096) :
    stackedIn V₁ v2₁ V₂ v2₂ (ix2 j k) = Ideal.sign (V₁ (ix2 s k)) * v2₁ (ix2 (0 : Fin 1) k) := by
  unfold stackedIn
  rw [concatenate_pair_apply_left (0 : Fin S2048x4096.rank) (inWeights V₁ v2₁) (inWeights V₂ v2₂)
    concatenates_S1024x4096_S1024x4096_S2048x4096_d0 (ix2 j k) rfl (ix2 s k) (fun b => by
    match b with
    | ⟨0, _⟩ => exact hj.symm
    | ⟨1, _⟩ => rfl)]
  exact inWeights_apply V₁ v2₁ s k

/-- The stacked first weights at a hidden entry of the SECOND path. -/
theorem stackedIn_second (V₁ : FVec Ideal S1024x4096 .f32) (v2₁ : FVec Ideal S1x4096 .f32)
    (V₂ : FVec Ideal S1024x4096 .f32) (v2₂ : FVec Ideal S1x4096 .f32) (j : Fin 2048) (s : Fin 1024)
    (hj : j.val = 1024 + s.val) (k : Fin 4096) :
    stackedIn V₁ v2₁ V₂ v2₂ (ix2 j k) = Ideal.sign (V₂ (ix2 s k)) * v2₂ (ix2 (0 : Fin 1) k) := by
  unfold stackedIn
  rw [concatenate_pair_apply_right (0 : Fin S2048x4096.rank) (inWeights V₁ v2₁) (inWeights V₂ v2₂)
    concatenates_S1024x4096_S1024x4096_S2048x4096_d0 (ix2 j k) rfl rfl (ix2 s k) (fun b hb => by
    match b with
    | ⟨0, _⟩ => exact absurd rfl hb
    | ⟨1, _⟩ => rfl) (by show s.val + 1024 = j.val; omega)]
  exact inWeights_apply V₂ v2₂ s k

/-- The stacked second weights at a hidden entry of the FIRST path. -/
theorem stackedOut_first (U₁ : FVec Ideal S4096x1024 .f32) (u1₁ : FVec Ideal S1x4096 .f32) (v1₁ u2₁ : FVec Ideal S1x1024 .f32)
    (U₂ : FVec Ideal S4096x1024 .f32) (u1₂ : FVec Ideal S1x4096 .f32) (v1₂ u2₂ : FVec Ideal S1x1024 .f32)
    (o : Fin 4096) (j : Fin 2048) (s : Fin 1024) (hj : j.val = s.val) :
    stackedOut U₁ u1₁ v1₁ u2₁ U₂ u1₂ v1₂ u2₂ (ix2 o j)
      = (Ideal.sign (U₁ (ix2 o s)) * u1₁ (ix2 (0 : Fin 1) o)) * (v1₁ (ix2 (0 : Fin 1) s) * u2₁ (ix2 (0 : Fin 1) s)) := by
  unfold stackedOut
  rw [concatenate_pair_apply_left (1 : Fin S4096x2048.rank) (outWeights U₁ u1₁ v1₁ u2₁) (outWeights U₂ u1₂ v1₂ u2₂)
    concatenates_S4096x1024_S4096x1024_S4096x2048_d1 (ix2 o j) rfl (ix2 o s) (fun b => by
    match b with
    | ⟨0, _⟩ => rfl
    | ⟨1, _⟩ => exact hj.symm)]
  exact outWeights_apply U₁ u1₁ v1₁ u2₁ o s

/-- The stacked second weights at a hidden entry of the SECOND path. -/
theorem stackedOut_second (U₁ : FVec Ideal S4096x1024 .f32) (u1₁ : FVec Ideal S1x4096 .f32) (v1₁ u2₁ : FVec Ideal S1x1024 .f32)
    (U₂ : FVec Ideal S4096x1024 .f32) (u1₂ : FVec Ideal S1x4096 .f32) (v1₂ u2₂ : FVec Ideal S1x1024 .f32)
    (o : Fin 4096) (j : Fin 2048) (s : Fin 1024) (hj : j.val = 1024 + s.val) :
    stackedOut U₁ u1₁ v1₁ u2₁ U₂ u1₂ v1₂ u2₂ (ix2 o j)
      = (Ideal.sign (U₂ (ix2 o s)) * u1₂ (ix2 (0 : Fin 1) o)) * (v1₂ (ix2 (0 : Fin 1) s) * u2₂ (ix2 (0 : Fin 1) s)) := by
  unfold stackedOut
  rw [concatenate_pair_apply_right (1 : Fin S4096x2048.rank) (outWeights U₁ u1₁ v1₁ u2₁) (outWeights U₂ u1₂ v1₂ u2₂)
    concatenates_S4096x1024_S4096x1024_S4096x2048_d1 (ix2 o j) rfl rfl (ix2 o s) (fun b hb => by
    match b with
    | ⟨0, _⟩ => rfl
    | ⟨1, _⟩ => exact absurd rfl hb) (by show s.val + 1024 = j.val; omega)]
  exact outWeights_apply U₂ u1₂ v1₂ u2₂ o s

/-- The bias recast as one row, at (0, o), is the bias at `o`. -/
theorem bias_row_apply (b : FVec Ideal S4096 .f32) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = 0 * 4096 + o.val
    omega)

/-! ## The four staged arrays as the region finds them -/

variable (m : (ℓ : Loc nD τ sig) → Buf (Elt Ideal) ℓ)

/-- The staged input: the input flattened to 8192 rows. -/
theorem staged_input (c : Dev nD) : (V m c main_v0 : S8192x4096.Idx → EReal)
    = shapeCast S8192x4096 (m ((c : Thread nD τ).loc main_arg0)) shapeCasts_S2x4096x4096_S8192x4096 := by
  show StableHlo.after hostOps0 (fun b => m (c, b)) (Proc.devRef .tc main_v0) = _
  after_results_simp
  rfl

/-- The staged bias: the bias as one row. -/
theorem staged_bias (c : Dev nD) : (V m c main_v27 : S1x4096.Idx → EReal)
    = shapeCast S1x4096 (m ((c : Thread nD τ).loc main_arg13)) shapeCasts_S4096_S1x4096 := by
  show StableHlo.after hostOps0 (fun b => m (c, b)) (Proc.devRef .tc main_v27) = _
  after_results_simp
  rfl

set_option maxHeartbeats 2000000 in
/-- The first staged weight matrix. -/
theorem staged_in_weights (c : Dev nD) : (V m c main_v25 : S2048x4096.Idx → EReal)
    = stackedIn (m ((c : Thread nD τ).loc main_arg1)) (m ((c : Thread nD τ).loc main_arg3))
        (m ((c : Thread nD τ).loc main_arg7)) (m ((c : Thread nD τ).loc main_arg9)) := by
  show StableHlo.after hostOps0 (fun b => m (c, b)) (Proc.devRef .tc main_v25) = _
  after_results_simp
  rfl

set_option maxHeartbeats 2000000 in
/-- The second staged weight matrix. -/
theorem staged_out_weights (c : Dev nD) : (V m c main_v26 : S4096x2048.Idx → EReal)
    = stackedOut (m ((c : Thread nD τ).loc main_arg2)) (m ((c : Thread nD τ).loc main_arg6))
        (m ((c : Thread nD τ).loc main_arg4)) (m ((c : Thread nD τ).loc main_arg5))
        (m ((c : Thread nD τ).loc main_arg8)) (m ((c : Thread nD τ).loc main_arg12))
        (m ((c : Thread nD τ).loc main_arg10)) (m ((c : Thread nD τ).loc main_arg11)) := by
  show StableHlo.after hostOps0 (fun b => m (c, b)) (Proc.devRef .tc main_v26) = _
  after_results_simp
  rfl

end Cert.KernelIdeal.HostPrefix

end
-- ==== Proof.LibERealSums.lean ====
/-
  General facts about finite sums and maxima of real numbers read inside the extended reals, and the
  splitting of a sum over `Fin (m * n)` into `m` consecutive blocks of `n` terms.
-/
import Mathlib.Data.EReal.Operations
import Mathlib.Algebra.BigOperators.Fin
import Mathlib.Data.Finset.Fold
import Mathlib.Logic.Equiv.Fin.Basic

namespace Cert.LibERealSums

open Finset

/-- The coercion of a finite sum of reals is the sum of the coercions: every partial sum is finite, so
    no infinity is ever met. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of extended reals each of which is (the coercion of) a real is the coercion of the real sum. -/
theorem sum_eq_coe {ι : Type*} (s : Finset ι) (g : ι → EReal) (f : ι → ℝ) (h : ∀ i ∈ s, g i = (f i : EReal)) :
    ∑ i ∈ s, g i = ((∑ i ∈ s, f i : ℝ) : EReal) := by
  rw [coe_finset_sum]
  exact Finset.sum_congr rfl h

/-- The maximum of a nonempty finite family of reals, folded from minus infinity inside the extended
    reals, is a real: it is at least one member of the family, hence not `⊥`, and every member and the
    start value are below `⊤`, hence it is not `⊤`. -/
theorem fold_max_bot_coe {ι : Type*} (s : Finset ι) (hs : s.Nonempty) (f : ι → ℝ) :
    ∃ m : ℝ, s.fold max (⊥ : EReal) (fun i => (f i : EReal)) = (m : EReal) := by
  obtain ⟨i₀, hi₀⟩ := hs
  have hlt : s.fold max (⊥ : EReal) (fun i => (f i : EReal)) < ⊤ :=
    (Finset.fold_max_lt _).mpr ⟨bot_lt_top, fun x _ => EReal.coe_lt_top (f x)⟩
  have hge : ((f i₀ : ℝ) : EReal) ≤ s.fold max (⊥ : EReal) (fun i => (f i : EReal)) :=
    (Finset.le_fold_max _).mpr (Or.inr ⟨i₀, hi₀, le_refl _⟩)
  have hne_bot : s.fold max (⊥ : EReal) (fun i => (f i : EReal)) ≠ ⊥ :=
    ne_of_gt (lt_of_lt_of_le (EReal.bot_lt_coe (f i₀)) hge)
  exact ⟨_, (EReal.coe_toReal (ne_of_lt hlt) hne_bot).symm⟩

/-- A sum over `Fin N`, with `N = m * n`, is the sum over the `m` blocks of `n` consecutive indices:
    `row k r` is the index `n * k + r`. -/
theorem sum_fin_blocks {M : Type*} [AddCommMonoid M] {m n N : ℕ} (hN : m * n = N)
    (row : Fin m → Fin n → Fin N) (hrow : ∀ k r, (row k r).val = n * k.val + r.val) (f : Fin N → M) :
    ∑ c : Fin N, f c = ∑ k : Fin m, ∑ r : Fin n, f (row k r) := by
  subst hN
  rw [← Equiv.sum_comp finProdFinEquiv f, Fintype.sum_prod_type]
  refine Finset.sum_congr rfl fun k _ => Finset.sum_congr rfl fun r _ => ?_
  refine congrArg f (Fin.ext ?_)
  rw [hrow k r]
  exact Nat.add_comm _ _

end Cert.LibERealSums
-- ==== Proof.TwoPathAlgebra.lean ====
/-
  The algebra that joins the two programs, over the extended reals.

  One path of the reference computes, for a row `x` of the input and an output column with sign row `b`
  and scale `u`,
      ( ∑ₛ ( ( ∑ₖ (x k · v k) · a s k ) · (p s · q s) ) · b s ) · u ,
  scaling the input first, the hidden vector next and the output last. The fused kernel folds the same
  scales into its two weight matrices and computes
      ∑ₛ ( ∑ₖ x k · (a s k · v k) ) · ( (b s · u) · (p s · q s) ) .
  The inner sums agree term by term by commutativity and associativity of the product; the outer ones
  agree by pulling the factor `u` out of the sum, which is distributivity — a law of the real numbers
  that the extended reals do not have at the infinities. So every entry is taken to be a real number,
  the identity is proved in ℝ, and the coercion ℝ → EReal carries it over (it preserves products and
  finite sums of reals).

  The kernel runs BOTH paths in one contraction: its hidden axis is the two paths' hidden axes one after
  the other, so its sum over `S + S` terms is the first path's sum plus the second's.
-/
import Mathlib.Data.EReal.Operations
import Mathlib.Algebra.BigOperators.Fin
import Mathlib.Algebra.BigOperators.Ring.Finset
import Mathlib.Tactic.Ring
import proofs.«174910_j8615704396412_2_alg».proof.Proof.LibERealSums

namespace Cert.TwoPath

open Finset

/-- An extended real that is a real number (neither infinity). -/
def IsReal (x : EReal) : Prop := ∃ r : ℝ, x = (r : EReal)

theorem isReal_coe (r : ℝ) : IsReal (r : EReal) := ⟨r, rfl⟩

/-- A product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- One path, in the real numbers: the scales folded into the weights, against the scales applied
    between the two products. -/
theorem path_real {K S : ℕ} (x v : Fin K → ℝ) (a : Fin S → Fin K → ℝ) (b p q : Fin S → ℝ) (u : ℝ) :
    ∑ s, (∑ k, x k * (a s k * v k)) * ((b s * u) * (p s * q s))
      = (∑ s, ((∑ k, (x k * v k) * a s k) * (p s * q s)) * b s) * u := by
  rw [Finset.sum_mul]
  refine Finset.sum_congr rfl fun s _ => ?_
  have inner : ∑ k, x k * (a s k * v k) = ∑ k, (x k * v k) * a s k :=
    Finset.sum_congr rfl fun k _ => by ring
  rw [inner]
  ring

/-- One path, in the extended reals, every entry a real number. -/
theorem path_ereal {K S : ℕ} (x v : Fin K → EReal) (a : Fin S → Fin K → EReal) (b p q : Fin S → EReal) (u : EReal)
    (hx : ∀ k, IsReal (x k)) (hv : ∀ k, IsReal (v k)) (ha : ∀ s k, IsReal (a s k))
    (hb : ∀ s, IsReal (b s)) (hp : ∀ s, IsReal (p s)) (hq : ∀ s, IsReal (q s)) (hu : IsReal u) :
    ∑ s, (∑ k, x k * (a s k * v k)) * ((b s * u) * (p s * q s))
      = (∑ s, ((∑ k, (x k * v k) * a s k) * (p s * q s)) * b s) * u := by
  choose x' hx using hx
  choose v' hv using hv
  choose a' ha using ha
  choose b' hb using hb
  choose p' hp using hp
  choose q' hq using hq
  obtain ⟨u', rfl⟩ := hu
  have hl : ∑ s, (∑ k, x k * (a s k * v k)) * ((b s * (u' : EReal)) * (p s * q s))
      = ((∑ s, (∑ k, x' k * (a' s k * v' k)) * ((b' s * u') * (p' s * q' s)) : ℝ) : EReal) := by
    refine Cert.LibERealSums.sum_eq_coe _ _ _ fun s _ => ?_
    rw [Cert.LibERealSums.sum_eq_coe univ (fun k => x k * (a s k * v k)) (fun k => x' k * (a' s k * v' k))
      (fun k _ => by rw [hx k, ha s k, hv k, ← EReal.coe_mul, ← EReal.coe_mul]),
      hb s, hp s, hq s, ← EReal.coe_mul, ← EReal.coe_mul, ← EReal.coe_mul, ← EReal.coe_mul]
  have hr : (∑ s, ((∑ k, (x k * v k) * a s k) * (p s * q s)) * b s) * (u' : EReal)
      = (((∑ s, ((∑ k, (x' k * v' k) * a' s k) * (p' s * q' s)) * b' s) * u' : ℝ) : EReal) := by
    rw [EReal.coe_mul]
    refine congrArg (· * (u' : EReal)) ?_
    refine Cert.LibERealSums.sum_eq_coe _ _ _ fun s _ => ?_
    rw [Cert.LibERealSums.sum_eq_coe univ (fun k => (x k * v k) * a s k) (fun k => (x' k * v' k) * a' s k)
      (fun k _ => by rw [hx k, ha s k, hv k, ← EReal.coe_mul, ← EReal.coe_mul]),
      hb s, hp s, hq s, ← EReal.coe_mul, ← EReal.coe_mul, ← EReal.coe_mul]
  rw [hl, hr, path_real]

/-- THE LAW. A contraction over a hidden axis of `N = S + S` entries whose weights are the first path's
    folded weights on the first `S` entries and the second path's on the rest, plus a bias `β` (any
    extended real), is the sum of the two paths computed the reference's way, plus `β`. The weights
    are named by their values: entry `j` of the hidden axis is entry `s` of the first path when
    `j = s` and of the second when `j = S + s`. -/
theorem fused_eq_two_paths {K S N : ℕ} (hN : S + S = N)
    (x : Fin K → EReal) (v v₂ : Fin K → EReal) (a a₂ : Fin S → Fin K → EReal)
    (b p q b₂ p₂ q₂ : Fin S → EReal) (u u₂ β : EReal)
    (W1 : Fin N → Fin K → EReal) (W2 : Fin N → EReal)
    (hW1l : ∀ (j : Fin N) (s : Fin S), j.val = s.val → ∀ k, W1 j k = a s k * v k)
    (hW1r : ∀ (j : Fin N) (s : Fin S), j.val = S + s.val → ∀ k, W1 j k = a₂ s k * v₂ k)
    (hW2l : ∀ (j : Fin N) (s : Fin S), j.val = s.val → W2 j = (b s * u) * (p s * q s))
    (hW2r : ∀ (j : Fin N) (s : Fin S), j.val = S + s.val → W2 j = (b₂ s * u₂) * (p₂ s * q₂ s))
    (hx : ∀ k, IsReal (x k))
    (hv : ∀ k, IsReal (v k)) (ha : ∀ s k, IsReal (a s k)) (hb : ∀ s, IsReal (b s))
    (hp : ∀ s, IsReal (p s)) (hq : ∀ s, IsReal (q s)) (hu : IsReal u)
    (hv₂ : ∀ k, IsReal (v₂ k)) (ha₂ : ∀ s k, IsReal (a₂ s k)) (hb₂ : ∀ s, IsReal (b₂ s))
    (hp₂ : ∀ s, IsReal (p₂ s)) (hq₂ : ∀ s, IsReal (q₂ s)) (hu₂ : IsReal u₂) :
    (∑ j : Fin N, (∑ k, x k * W1 j k) * W2 j) + β
      = ((∑ s, ((∑ k, (x k * v k) * a s k) * (p s * q s)) * b s) * u
          + (∑ s, ((∑ k, (x k * v₂ k) * a₂ s k) * (p₂ s * q₂ s)) * b₂ s) * u₂) + β := by
  subst hN
  rw [Fin.sum_univ_add]
  have e1 : ∀ s : Fin S, (∑ k, x k * W1 (Fin.castAdd S s) k) * W2 (Fin.castAdd S s)
      = (∑ k, x k * (a s k * v k)) * ((b s * u) * (p s * q s)) := fun s => by
    rw [hW2l (Fin.castAdd S s) s rfl]
    exact congrArg (· * _) (Finset.sum_congr rfl fun k _ => by rw [hW1l (Fin.castAdd S s) s rfl k])
  have e2 : ∀ s : Fin S, (∑ k, x k * W1 (Fin.natAdd S s) k) * W2 (Fin.natAdd S s)
      = (∑ k, x k * (a₂ s k * v₂ k)) * ((b₂ s * u₂) * (p₂ s * q₂ s)) := fun s => by
    rw [hW2r (Fin.natAdd S s) s rfl]
    exact congrArg (· * _) (Finset.sum_congr rfl fun k _ => by rw [hW1r (Fin.natAdd S s) s rfl k])
  rw [Finset.sum_congr rfl fun s _ => e1 s, Finset.sum_congr rfl fun s _ => e2 s,
    path_ereal x v a b p q u hx hv ha hb hp hq hu, path_ereal x v₂ a₂ b₂ p₂ q₂ u₂ hx hv₂ ha₂ hb₂ hp₂ hq₂ hu₂]

end Cert.TwoPath
-- ==== Proof.ReferenceValue.lean ====
/-
  The reference on the flattened array, read at an entry (n, o).

  Each of its two paths scales the input row by the input scale, contracts it with a row of the sign matrix,
  scales the hidden vector by the product of the two hidden scales, contracts it with a row of the second sign
  matrix and scales the result by the output scale; the paths are added and the bias is added last:
      ref (n, o) = ( P₁ (n, o) + P₂ (n, o) ) + bias o ,
      P (n, o)  = ( ∑ₛ ( ( ∑ₖ (X (n, k) · v2 (0, k)) · sign V (s, k) ) · (v1 (0, s) · u2 (0, s)) ) · sign U (o, s) ) · u1 (0, o).
  The transposes of the sign matrices only exchange the two coordinates of the entry read. The flattened input
  X is kept as it is (the kernel flattens the input the same way).
-/
import proofs.«174910_j8615704396412_2_alg».proof.Proof.Gen.ReferenceIdeal.Read
import Idealize.ShloMosaic.Lib.ValueIdx
import Idealize.ShloMosaic.PureOps.Ideal.Laws

noncomputable section

namespace Cert.ReferenceIdeal.TwoPathValue

open Cert.ReferenceIdeal Cert.ReferenceIdeal.Read Idealize.ShloMosaic Idealize.ShloMosaic.ValueIdx

/-- The first path's hidden vector at (n, s): the scaled input row against row `s` of the sign matrix. -/
theorem hidden_first (x0 : (⟨S2x4096x4096, .f32⟩ : BufTy).Contents (Elt Ideal)) (x1 : (⟨S1024x4096, .f32⟩ : BufTy).Contents (Elt Ideal)) (x3 : (⟨S1x4096, .f32⟩ : BufTy).Contents (Elt Ideal)) (n : Fin 8192) (s : Fin 1024) :
    val_main_v6 (F := Ideal) x0 x1 x3 (ix2 n s)
      = ∑ k : Fin 4096, (val_main_v0 (F := Ideal) x0 (ix2 n k) * x3 (ix2 (0 : Fin 1) k)) * Ideal.sign (x1 (ix2 s k)) := by
  rw [val_main_v6_apply]
  refine Finset.sum_congr rfl fun k _ => ?_
  rw [val_main_v4_apply, val_main_v3_apply, val_main_v5_apply, val_main_v1_apply]
  have e1 : lidx_main_v6 (ix2 n s) k = ix2 n k :=
    funext fun a => Fin.ext (by match a with | ⟨0, _⟩ => rfl | ⟨1, _⟩ => rfl)
  have e2 : idx_main_v3 (ix2 n k) = ix2 (0 : Fin 1) k :=
    funext fun a => Fin.ext (by match a with | ⟨0, _⟩ => rfl | ⟨1, _⟩ => rfl)
  have e3 : idx_main_v5 (ridx_main_v6 (ix2 n s) k) = ix2 s k :=
    funext fun a => Fin.ext (by match a with | ⟨0, _⟩ => rfl | ⟨1, _⟩ => rfl)
  rw [e1, e2, e3]
  rfl

/-- The first path at (n, o): input scaled, contracted, hidden vector scaled, contracted, output scaled. -/
theorem path_first (x0 : (⟨S2x4096x4096, .f32⟩ : BufTy).Contents (Elt Ideal)) (x1 : (⟨S1024x4096, .f32⟩ : BufTy).Contents (Elt Ideal)) (x2 : (⟨S4096x1024, .f32⟩ : BufTy).Contents (Elt Ideal)) (x3 : (⟨S1x4096, .f32⟩ : BufTy).Contents (Elt Ideal)) (x4 : (⟨S1x1024, .f32⟩ : BufTy).Contents (Elt Ideal)) (x5 : (⟨S1x1024, .f32⟩ : BufTy).Contents (Elt Ideal)) (x6 : (⟨S1x4096, .f32⟩ : BufTy).Contents (Elt Ideal)) (n : Fin 8192) (o : Fin 4096) :
    val_main_v13 (F := Ideal) x0 x1 x2 x3 x4 x5 x6 (ix2 n o)
      = (∑ s : Fin 1024, ((∑ k : Fin 4096, (val_main_v0 (F := Ideal) x0 (ix2 n k) * x3 (ix2 (0 : Fin 1) k)) * Ideal.sign (x1 (ix2 s k)))
            * (x4 (ix2 (0 : Fin 1) s) * x5 (ix2 (0 : Fin 1) s))) * Ideal.sign (x2 (ix2 o s)))
          * x6 (ix2 (0 : Fin 1) o) := by
  rw [val_main_v13_apply, val_main_v11_apply, val_main_v12_apply]
  have e0 : idx_main_v12 (ix2 n o) = ix2 (0 : Fin 1) o :=
    funext fun a => Fin.ext (by match a with | ⟨0, _⟩ => rfl | ⟨1, _⟩ => rfl)
  rw [e0]
  show (∑ s : Fin 1024, _) * x6 (ix2 (0 : Fin 1) o) = _
  refine congrArg (· * x6 (ix2 (0 : Fin 1) o)) ?_
  refine Finset.sum_congr rfl fun s _ => ?_
  rw [val_main_v9_apply, val_main_v8_apply, val_main_v7_apply, val_main_v10_apply, val_main_v2_apply]
  have e1 : lidx_main_v11 (ix2 n o) s = ix2 n s :=
    funext fun a => Fin.ext (by match a with | ⟨0, _⟩ => rfl | ⟨1, _⟩ => rfl)
  have e2 : idx_main_v8 (ix2 n s) = ix2 (0 : Fin 1) s :=
    funext fun a => Fin.ext (by match a with | ⟨0, _⟩ => rfl | ⟨1, _⟩ => rfl)
  have e3 : idx_main_v10 (ridx_main_v11 (ix2 n o) s) = ix2 o s :=
    funext fun a => Fin.ext (by match a with | ⟨0, _⟩ => rfl | ⟨1, _⟩ => rfl)
  rw [e1, e2, e3, hidden_first]
  rfl

/-- The second (residual) path's hidden vector at (n, s). -/
theorem hidden_second (x0 : (⟨S2x4096x4096, .f32⟩ : BufTy).Contents (Elt Ideal)) (x7 : (⟨S1024x4096, .f32⟩ : BufTy).Contents (Elt Ideal)) (x9 : (⟨S1x4096, .f32⟩ : BufTy).Contents (Elt Ideal)) (n : Fin 8192) (s : Fin 1024) :
    val_main_v19 (F := Ideal) x0 x7 x9 (ix2 n s)
      = ∑ k : Fin 4096, (val_main_v0 (F := Ideal) x0 (ix2 n k) * x9 (ix2 (0 : Fin 1) k)) * Ideal.sign (x7 (ix2 s k)) := by
  rw [val_main_v19_apply]
  refine Finset.sum_congr rfl fun k _ => ?_
  rw [val_main_v17_apply, val_main_v16_apply, val_main_v18_apply, val_main_v14_apply]
  have e1 : lidx_main_v19 (ix2 n s) k = ix2 n k :=
    funext fun a => Fin.ext (by match a with | ⟨0, _⟩ => rfl | ⟨1, _⟩ => rfl)
  have e2 : idx_main_v16 (ix2 n k) = ix2 (0 : Fin 1) k :=
    funext fun a => Fin.ext (by match a with | ⟨0, _⟩ => rfl | ⟨1, _⟩ => rfl)
  have e3 : idx_main_v18 (ridx_main_v19 (ix2 n s) k) = ix2 s k :=
    funext fun a => Fin.ext (by match a with | ⟨0, _⟩ => rfl | ⟨1, _⟩ => rfl)
  rw [e1, e2, e3]
  rfl

/-- The second (residual) path at (n, o). -/
theorem path_second (x0 : (⟨S2x4096x4096, .f32⟩ : BufTy).Contents (Elt Ideal)) (x7 : (⟨S1024x4096, .f32⟩ : BufTy).Contents (Elt Ideal)) (x8 : (⟨S4096x1024, .f32⟩ : BufTy).Contents (Elt Ideal)) (x9 : (⟨S1x4096, .f32⟩ : BufTy).Contents (Elt Ideal)) (x10 : (⟨S1x1024, .f32⟩ : BufTy).Contents (Elt Ideal)) (x11 : (⟨S1x1024, .f32⟩ : BufTy).Contents (Elt Ideal)) (x12 : (⟨S1x4096, .f32⟩ : BufTy).Contents (Elt Ideal)) (n : Fin 8192) (o : Fin 4096) :
    val_main_v26 (F := Ideal) x0 x7 x8 x9 x10 x11 x12 (ix2 n o)
      = (∑ s : Fin 1024, ((∑ k : Fin 4096, (val_main_v0 (F := Ideal) x0 (ix2 n k) * x9 (ix2 (0 : Fin 1) k)) * Ideal.sign (x7 (ix2 s k)))
            * (x10 (ix2 (0 : Fin 1) s) * x11 (ix2 (0 : Fin 1) s))) * Ideal.sign (x8 (ix2 o s)))
          * x12 (ix2 (0 : Fin 1) o) := by
  rw [val_main_v26_apply, val_main_v24_apply, val_main_v25_apply]
  have e0 : idx_main_v25 (ix2 n o) = ix2 (0 : Fin 1) o :=
    funext fun a => Fin.ext (by match a with | ⟨0, _⟩ => rfl | ⟨1, _⟩ => rfl)
  rw [e0]
  show (∑ s : Fin 1024, _) * x12 (ix2 (0 : Fin 1) o) = _
  refine congrArg (· * x12 (ix2 (0 : Fin 1) o)) ?_
  refine Finset.sum_congr rfl fun s _ => ?_
  rw [val_main_v22_apply, val_main_v21_apply, val_main_v20_apply, val_main_v23_apply, val_main_v15_apply]
  have e1 : lidx_main_v24 (ix2 n o) s = ix2 n s :=
    funext fun a => Fin.ext (by match a with | ⟨0, _⟩ => rfl | ⟨1, _⟩ => rfl)
  have e2 : idx_main_v21 (ix2 n s) = ix2 (0 : Fin 1) s :=
    funext fun a => Fin.ext (by match a with | ⟨0, _⟩ => rfl | ⟨1, _⟩ => rfl)
  have e3 : idx_main_v23 (ridx_main_v24 (ix2 n o) s) = ix2 o s :=
    funext fun a => Fin.ext (by match a with | ⟨0, _⟩ => rfl | ⟨1, _⟩ => rfl)
  rw [e1, e2, e3, hidden_second]
  rfl

/-- THE REFERENCE at (n, o) of the flattened result: the two paths, then the bias. -/
theorem reference_apply (x0 : (⟨S2x4096x4096, .f32⟩ : BufTy).Contents (Elt Ideal)) (x1 : (⟨S1024x4096, .f32⟩ : BufTy).Contents (Elt Ideal)) (x2 : (⟨S4096x1024, .f32⟩ : BufTy).Contents (Elt Ideal)) (x3 : (⟨S1x4096, .f32⟩ : BufTy).Contents (Elt Ideal)) (x4 : (⟨S1x1024, .f32⟩ : BufTy).Contents (Elt Ideal)) (x5 : (⟨S1x1024, .f32⟩ : BufTy).Contents (Elt Ideal)) (x6 : (⟨S1x4096, .f32⟩ : BufTy).Contents (Elt Ideal)) (x7 : (⟨S1024x4096, .f32⟩ : BufTy).Contents (Elt Ideal)) (x8 : (⟨S4096x1024, .f32⟩ : BufTy).Contents (Elt Ideal)) (x9 : (⟨S1x4096, .f32⟩ : BufTy).Contents (Elt Ideal)) (x10 : (⟨S1x1024, .f32⟩ : BufTy).Contents (Elt Ideal)) (x11 : (⟨S1x1024, .f32⟩ : BufTy).Contents (Elt Ideal)) (x12 : (⟨S1x4096, .f32⟩ : BufTy).Contents (Elt Ideal)) (x13 : (⟨S4096, .f32⟩ : BufTy).Contents (Elt Ideal)) (n : Fin 8192) (o : Fin 4096) :
    val_main_v30 (F := Ideal) x0 x1 x2 x3 x4 x5 x6 x7 x8 x9 x10 x11 x12 x13 (ix2 n o)
      = ((∑ s : Fin 1024, ((∑ k : Fin 4096, (val_main_v0 (F := Ideal) x0 (ix2 n k) * x3 (ix2 (0 : Fin 1) k)) * Ideal.sign (x1 (ix2 s k)))
            * (x4 (ix2 (0 : Fin 1) s) * x5 (ix2 (0 : Fin 1) s))) * Ideal.sign (x2 (ix2 o s)))
          * x6 (ix2 (0 : Fin 1) o)
        + (∑ s : Fin 1024, ((∑ k : Fin 4096, (val_main_v0 (F := Ideal) x0 (ix2 n k) * x9 (ix2 (0 : Fin 1) k)) * Ideal.sign (x7 (ix2 s k)))
            * (x10 (ix2 (0 : Fin 1) s) * x11 (ix2 (0 : Fin 1) s))) * Ideal.sign (x8 (ix2 o s)))
          * x12 (ix2 (0 : Fin 1) o))
        + x13 (ix1 o) := by
  rw [val_main_v30_apply, val_main_v27_apply, val_main_v29_apply, val_main_v28_apply, path_first, path_second]
  have e : idx_main_v28 (idx_main_v29 (ix2 n o)) = ix1 o :=
    funext fun a => Fin.ext (by match a with | ⟨0, _⟩ => rfl)
  rw [e]
  rfl

end Cert.ReferenceIdeal.TwoPathValue

end
-- ==== Proof.Bridge.lean ====
/-
  The bridge: on the flattened array the kernel's fused expression IS the reference's two paths plus bias,
  when every entry of every argument is a real number.

  At (n, o) the kernel's side is  ∑ⱼ ( ∑ₖ X (n, k) · W1 (j, k) ) · W2 (o, j) + bias o  with the stacked folded
  weights, whose entries at a hidden index j are the first path's for j < 1024 and the second path's for
  j = 1024 + s; the reference's side is the two paths computed with the scales applied between the products.
  The law `fused_eq_two_paths` joins them; it needs real entries because it pulls the output scale out of a
  sum. The sign of a real number is a real number (−1, 0 or 1), so the sign matrices are real with their arguments.
-/
import proofs.«174910_j8615704396412_2_alg».proof.Proof.TwoPathAlgebra
import proofs.«174910_j8615704396412_2_alg».proof.Proof.FusedSpec
import proofs.«174910_j8615704396412_2_alg».proof.Proof.KernelHost
import proofs.«174910_j8615704396412_2_alg».proof.Proof.ReferenceValue

noncomputable section

namespace Cert.Bridge

open Idealize.ShloMosaic Idealize.ShloMosaic.ValueIdx
open Cert.TwoPath

/-- The sign of a real number is a real number. -/
theorem isReal_sign {x : EReal} (h : IsReal x) : IsReal (Ideal.sign x) := by
  obtain ⟨r, rfl⟩ := h
  exact ⟨_, Ideal.sign_coe r⟩

/-- An entry of the flattened input is an entry of the input. -/
theorem isReal_flat (a0 : FVec Ideal Cert.KernelIdeal.S2x4096x4096 .f32) (h0 : ∀ i, IsReal (a0 i)) (i : Cert.ReferenceIdeal.S8192x4096.Idx) :
    IsReal (Cert.ReferenceIdeal.Read.val_main_v0 (F := Ideal) a0 i) := by
  rw [Cert.ReferenceIdeal.Read.val_main_v0_apply]
  exact h0 _

/-- THE BRIDGE on the flattened array. -/
theorem fused_eq_reference
    (a0 : FVec Ideal Cert.KernelIdeal.S2x4096x4096 .f32) (a1 : FVec Ideal Cert.KernelIdeal.S1024x4096 .f32) (a2 : FVec Ideal Cert.KernelIdeal.S4096x1024 .f32)
    (a3 : FVec Ideal Cert.KernelIdeal.S1x4096 .f32) (a4 a5 : FVec Ideal Cert.KernelIdeal.S1x1024 .f32) (a6 : FVec Ideal Cert.KernelIdeal.S1x4096 .f32)
    (a7 : FVec Ideal Cert.KernelIdeal.S1024x4096 .f32) (a8 : FVec Ideal Cert.KernelIdeal.S4096x1024 .f32)
    (a9 : FVec Ideal Cert.KernelIdeal.S1x4096 .f32) (a10 a11 : FVec Ideal Cert.KernelIdeal.S1x1024 .f32) (a12 : FVec Ideal Cert.KernelIdeal.S1x4096 .f32)
    (a13 : FVec Ideal Cert.KernelIdeal.S4096 .f32)
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) (h7 : ∀ i, IsReal (a7 i))
    (h8 : ∀ i, IsReal (a8 i)) (h9 : ∀ i, IsReal (a9 i)) (h10 : ∀ i, IsReal (a10 i)) (h11 : ∀ i, IsReal (a11 i))
    (h12 : ∀ i, IsReal (a12 i)) :
    fused (Cert.ReferenceIdeal.Read.val_main_v0 (F := Ideal) a0) (Cert.KernelIdeal.HostPrefix.stackedIn a1 a3 a7 a9)
        (Cert.KernelIdeal.HostPrefix.stackedOut a2 a6 a4 a5 a8 a12 a10 a11)
        (shapeCast Cert.KernelIdeal.S1x4096 a13 Cert.KernelIdeal.Facts₀.shapeCasts_S4096_S1x4096)
      = Cert.ReferenceIdeal.Read.val_main_v30 (F := Ideal) a0 a1 a2 a3 a4 a5 a6 a7 a8 a9 a10 a11 a12 a13 := by
  funext i
  obtain ⟨n, o, rfl⟩ : ∃ (n : Fin 8192) (o : Fin 4096), i = ix2 n o := ⟨i 0, i 1, eq_ix2 i⟩
  rw [Cert.ReferenceIdeal.TwoPathValue.reference_apply]
  show fusedAt _ _ _ _ n o = _
  unfold fusedAt
  rw [Cert.KernelIdeal.HostPrefix.bias_row_apply]
  exact fused_eq_two_paths (K := 4096) (S := 1024) (N := 2048) rfl
    (x := fun k => Cert.ReferenceIdeal.Read.val_main_v0 (F := Ideal) a0 (ix2 n k))
    (v := fun k => a3 (ix2 (0 : Fin 1) k)) (v₂ := fun k => a9 (ix2 (0 : Fin 1) k))
    (a := fun s k => Ideal.sign (a1 (ix2 s k))) (a₂ := fun s k => Ideal.sign (a7 (ix2 s k)))
    (b := fun s => Ideal.sign (a2 (ix2 o s))) (p := fun s => a4 (ix2 (0 : Fin 1) s)) (q := fun s => a5 (ix2 (0 : Fin 1) s))
    (b₂ := fun s => Ideal.sign (a8 (ix2 o s))) (p₂ := fun s => a10 (ix2 (0 : Fin 1) s)) (q₂ := fun s => a11 (ix2 (0 : Fin 1) s))
    (u := a6 (ix2 (0 : Fin 1) o)) (u₂ := a12 (ix2 (0 : Fin 1) o)) (β := a13 (ix1 o))
    (W1 := fun j k => Cert.KernelIdeal.HostPrefix.stackedIn a1 a3 a7 a9 (ix2 j k))
    (W2 := fun j => Cert.KernelIdeal.HostPrefix.stackedOut a2 a6 a4 a5 a8 a12 a10 a11 (ix2 o j))
    (hW1l := fun j s hj k => Cert.KernelIdeal.HostPrefix.stackedIn_first a1 a3 a7 a9 j s hj k)
    (hW1r := fun j s hj k => Cert.KernelIdeal.HostPrefix.stackedIn_second a1 a3 a7 a9 j s hj k)
    (hW2l := fun j s hj => Cert.KernelIdeal.HostPrefix.stackedOut_first a2 a6 a4 a5 a8 a12 a10 a11 o j s hj)
    (hW2r := fun j s hj => Cert.KernelIdeal.HostPrefix.stackedOut_second a2 a6 a4 a5 a8 a12 a10 a11 o j s hj)
    (hx := fun k => isReal_flat a0 h0 _)
    (hv := fun k => h3 _) (ha := fun s k => isReal_sign (h1 _)) (hb := fun s => isReal_sign (h2 _))
    (hp := fun s => h4 _) (hq := fun s => h5 _) (hu := h6 _)
    (hv₂ := fun k => h9 _) (ha₂ := fun s k => isReal_sign (h7 _)) (hb₂ := fun s => isReal_sign (h8 _))
    (hp₂ := fun s => h10 _) (hq₂ := fun s => h11 _) (hu₂ := h12 _)

end Cert.Bridge

end
-- ==== Proof.FiniteInputs.lean ====
/-
  The precondition "every float input is finite", opened once.

  The predicate compares, entry by entry, the absolute value of each of the fourteen argument arrays with the f32
  pattern of +∞, takes the conjunction of each array's comparisons (a reduction by `and` from 1 over all axes), and
  takes the conjunction of the fourteen results. On the extended reals the pattern 0x7F800000 denotes ⊤ and the
  absolute value of `x` is `max x (-x)`; `max x (-x) < ⊤` excludes `x = ⊤` and `x = ⊥`, so `x` is a real number.
  Hence: if the predicate holds, every entry of every argument array is (the coercion of) a real number.
-/
import proofs.«174910_j8615704396412_2_alg».proof.Pre_finite_inputs
import Idealize.ShloMosaic.PureOps.Ideal
import Idealize.ShloMosaic.Lib.ReduceAll
import Idealize.ShloMosaic.Lib.ValueIdx

noncomputable section

namespace Cert.FiniteInputs

open Idealize.ShloMosaic Idealize.ShloMosaic.ValueIdx
open Cert.Pre_finite_inputs

/-- The f32 pattern `0x7F800000` (sign 0, exponent all ones, fraction 0) denotes `⊤`. -/
theorem ofBits_inf : Ideal.ofBits .f32 0x7F800000#32 = (⊤ : EReal) := by
  simp [Ideal.ofBits, Ideal.ieee]

/-- An extended real whose absolute value `max x (-x)` is below `⊤` is a real number: at `x = ⊥` the maximum is
    `-⊥ = ⊤`, at `x = ⊤` it is `⊤`, and neither is below `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- One value: if the comparison `|x| < +∞` answers 1, then `x` is a real number. The comparison is the bit of the
    decision `max x (-x) < ⊤`; were the inequality false the bit would be 0. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One entry of an array of any shape: the array's comparison with the broadcast `+∞`, read at index `i`, is the
    comparison of the one value `x i` (each array operation is pointwise, and the broadcast of a constant scalar is
    that constant at every index). -/
theorem real_of_lt_inf {s : Shape} (hb : S_.BroadcastsInDim s (![] : Fin 0 → Fin s.rank)) (x : FVec Ideal s .f32)
    (i : s.Idx)
    (hi : cmpf .olt (Host.absf x) (broadcastInDim s ![] hb (constant S_ .f32 0x7F800000#32)) i = 1#1) :
    ∃ r : ℝ, x i = (r : EReal) :=
  real_of_cmp (x i) hi

/-- The rank-0 shape has one index. -/
instance : Subsingleton S_.Idx := ⟨fun a b => funext fun d => d.elim0⟩

/-- One array: if the conjunction over all its entries of `|x i| < +∞` (the reduction by `and`, from 1, over all
    axes) is 1, then every comparison is 1, so every entry is a real number. -/
theorem real_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi (cmpf .olt (Host.absf x) (broadcastInDim s ![] hb (constant S_ .f32 0x7F800000#32)))
          (constantI S_ 1 1#1) hr hu ix0 = 1#1) :
    ∀ i, ∃ r : ℝ, x i = (r : EReal) :=
  fun i => real_of_lt_inf hb x i (Host.reduce_andi_all _ _ hr hu ix0 h i)

variable [hP : Cert.Pre_finite_inputs.Facts]

/-- The precondition decoded, for any proof of the predicate's side conditions: if the predicate is 1 (at its one
    index), every entry of each of the fourteen argument arrays is a real number. The predicate's value at its index
    is the left-nested conjunction `(((c0 ∧ c1) ∧ c2) ∧ … ) ∧ c13` of the fourteen per-array results; a conjunction of
    bits is 1 exactly when both bits are, which peels the results off from the last to the first. -/
theorem entries_real
    (a0 : FVec Ideal S2x4096x4096 .f32) (a1 : FVec Ideal S1024x4096 .f32) (a2 : FVec Ideal S4096x1024 .f32)
    (a3 : FVec Ideal S1x4096 .f32) (a4 : FVec Ideal S1x1024 .f32) (a5 : FVec Ideal S1x1024 .f32)
    (a6 : FVec Ideal S1x4096 .f32) (a7 : FVec Ideal S1024x4096 .f32) (a8 : FVec Ideal S4096x1024 .f32)
    (a9 : FVec Ideal S1x4096 .f32) (a10 : FVec Ideal S1x1024 .f32) (a11 : FVec Ideal S1x1024 .f32)
    (a12 : FVec Ideal S1x4096 .f32) (a13 : FVec Ideal S4096 .f32)
    (h : Cert.Pre_finite_inputs.fn (F := Ideal) a0 a1 a2 a3 a4 a5 a6 a7 a8 a9 a10 a11 a12 a13 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) ∧
    (∀ i, ∃ r : ℝ, a9 i = (r : EReal)) ∧ (∀ i, ∃ r : ℝ, a10 i = (r : EReal)) ∧ (∀ i, ∃ r : ℝ, a11 i = (r : EReal)) ∧
    (∀ i, ∃ r : ℝ, a12 i = (r : EReal)) ∧ (∀ i, ∃ r : ℝ, a13 i = (r : EReal)) := by
  have h0 : Cert.Pre_finite_inputs.fn (F := Ideal) a0 a1 a2 a3 a4 a5 a6 a7 a8 a9 a10 a11 a12 a13 ix0 = 1#1 :=
    congrFun h ix0
  dsimp only [Cert.Pre_finite_inputs.fn, Cert.Pre_finite_inputs.fn_part1, Cert.Pre_finite_inputs.fn_part2,
    Cert.Pre_finite_inputs.fn_part3, Cert.Pre_finite_inputs.fn_part4, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7,
    real_of_all _ _ _ a8 e8, real_of_all _ _ _ a9 e9, real_of_all _ _ _ a10 e10, real_of_all _ _ _ a11 e11,
    real_of_all _ _ _ a12 e12, real_of_all _ _ _ a13 e13⟩

end Cert.FiniteInputs

end
-- ==== Proof.KernelResult.lean ====
/-
  The kernel's run, with its result named.

  After the region one host line reshapes the [8192, 4096] output array to [2, 4096, 4096]. The output array is
  the fused expression of the four staged arrays (the blocks tile it), the staged arrays are the host's folded
  weights, the flattened input and the bias row, and — every input entry being a real number — the fused
  expression is the reference's flattened result. The reference ends with the same reshape, so the kernel's
  result is the reference's result term, of the kernel's own arguments.
-/
import proofs.«174910_j8615704396412_2_alg».proof.Defs
import proofs.«174910_j8615704396412_2_alg».proof.Proof.Gen.Pre_finite_inputs
import proofs.«174910_j8615704396412_2_alg».proof.Proof.KernelArray
import proofs.«174910_j8615704396412_2_alg».proof.Proof.KernelHost
import proofs.«174910_j8615704396412_2_alg».proof.Proof.Bridge
import proofs.«174910_j8615704396412_2_alg».proof.Proof.FiniteInputs
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The program's result buffer after the host line that follows the region: the output array, reshaped. -/
theorem tail_eq (c : Dev nD) :
    Pipeline.afterTail₀ cfgs (dats m) 0 (V0 m) [hostOps1] c main_v29
      = shapeCast S2x4096x4096 ((dats m 0 c).arrAt 4 cfg0.N) shapeCasts_S8192x4096_S2x4096x4096 := by
  unfold Pipeline.afterTail₀
  show StableHlo.after hostOps1 _ (Proc.devRef .tc main_v29) = _
  after_results
  exact congrArg (fun y => shapeCast S2x4096x4096 y shapeCasts_S8192x4096_S2x4096x4096)
    (Pipeline.withArrays_arr spec0 launch0.win.arr_inj c _ _ 4)

/-- THE KERNEL'S RESULT, under the precondition, is the reference's result term of the kernel's arguments. -/
theorem value_eq (hpre : Cert.Pre_KernelIdeal m) (c : Dev nD) :
    Pipeline.afterTail₀ cfgs (dats m) 0 (V0 m) [hostOps1] c main_v29
      = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨h0, h1, h2, h3, h4, h5, h6, h7, h8, h9, h10, h11, h12, h13⟩ :=
    Cert.FiniteInputs.entries_real _ _ _ _ _ _ _ _ _ _ _ _ _ _ (hpre c)
  rw [tail_eq, Cert.KernelIdeal.OutArray.final, Cert.KernelIdeal.HostPrefix.staged_input,
    Cert.KernelIdeal.HostPrefix.staged_in_weights, Cert.KernelIdeal.HostPrefix.staged_out_weights,
    Cert.KernelIdeal.HostPrefix.staged_bias]
  exact congrArg (fun y => shapeCast S2x4096x4096 y shapeCasts_S8192x4096_S2x4096x4096)
    (Cert.Bridge.fused_eq_reference _ _ _ _ _ _ _ _ _ _ _ _ _ _ h0 h1 h2 h3 h4 h5 h6 h7 h8 h9 h10 h11 h12)

/-- THE RUN: under the precondition every weakly fair execution ends with the result at the reference's result
    term of the kernel's arguments, the arguments unchanged. -/
theorem run_value (hpre : Cert.Pre_KernelIdeal m) :
    θ_run defs (onTc (τ := τ) (main (F := Ideal))) ⟨m, fun _ => 0, ρ⟩ (fun r => ∀ c : Dev nD,
      r.2.mem ((c : Thread nD τ).loc main_v29)
          = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c =>
    ⟨((h c).2 main_v29 (Pipeline.mem_restRefs_of main_v29 (by decide) (by decide))).trans (value_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Result

end
-- ==== Proof.lean ====
/-
  The certificate: a fused two-matmul kernel against a two-path reference.

  The reference computes  y = P(V, U, v2, v1, u2, u1) + P(V_R, U_R, v2_R, v1_R, u2_R, u1_R) + bias  on the input
  flattened to 8192 rows, where one path is
      P (n, o) = ( ∑ₛ ( ( ∑ₖ (x (n, k) · v2 k) · sign V (s, k) ) · (v1 s · u2 s) ) · sign U (o, s) ) · u1 o .
  The kernel folds every scale into two weight matrices on the host, stacks the two paths along the hidden axis
  (2048 = 1024 + 1024 hidden entries), and runs, per block of 64 rows, two matrix products and a bias add.
  On the extended reals the two agree when every input entry is a real number: termwise by commutativity and
  associativity, and by pulling each path's output scale out of its sum (Proof/TwoPathAlgebra.lean). The
  precondition "every input is finite" gives the real entries (Proof/FiniteInputs.lean). The kernel's result
  is read off its frame run block by block (Proof/BodyValue.lean, Proof/KernelArray.lean), the host lines
  around the region by their composed terms (Proof/KernelHost.lean, Proof/KernelResult.lean), the reference
  entry by entry (Proof/ReferenceValue.lean), and Proof/Bridge.lean joins them. The idealization rewrote no
  operation, so `preserves` is trivial.
-/
import proofs.«174910_j8615704396412_2_alg».proof.Defs
import proofs.«174910_j8615704396412_2_alg».proof.Proof.Gen.Kernel
import proofs.«174910_j8615704396412_2_alg».proof.Proof.Gen.Kernel.Skeleton
import proofs.«174910_j8615704396412_2_alg».proof.Proof.Gen.Kernel.Launch
import proofs.«174910_j8615704396412_2_alg».proof.Proof.Gen.Kernel.Points
import proofs.«174910_j8615704396412_2_alg».proof.Proof.Gen.Kernel.Frame
import proofs.«174910_j8615704396412_2_alg».proof.Proof.Gen.KernelIdeal
import proofs.«174910_j8615704396412_2_alg».proof.Proof.Gen.KernelIdeal.Skeleton
import proofs.«174910_j8615704396412_2_alg».proof.Proof.Gen.KernelIdeal.Launch
import proofs.«174910_j8615704396412_2_alg».proof.Proof.Gen.KernelIdeal.Points
import proofs.«174910_j8615704396412_2_alg».proof.Proof.Gen.KernelIdeal.Frame
import proofs.«174910_j8615704396412_2_alg».proof.Proof.Gen.ReferenceIdeal
import proofs.«174910_j8615704396412_2_alg».proof.Proof.Gen.Pre_finite_inputs
import proofs.«174910_j8615704396412_2_alg».proof.Proof.Gen.ReferenceIdeal.Run
import proofs.«174910_j8615704396412_2_alg».proof.Proof.Gen.ReferenceIdeal.Read
import proofs.«174910_j8615704396412_2_alg».proof.Proof.KernelResult
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end at the reference's result term of those
    arguments: the kernel by its run read block by block and the two-path law, the reference by its own run. -/
theorem algebraic : Cert.algebraic_KernelIdeal_ReferenceIdeal := by
  intro m ρ m' ρ' hpre hagree
  refine ⟨_, Cert.KernelIdeal.Result.run_value m ρ hpre, ?_⟩
  refine (θ_run Cert.ReferenceIdeal.defs _ _).mono
    (fun _ h c => ⟨((h c).1.trans (Cert.ReferenceIdeal.Read.val_main_v31_eq ..)).trans ?_, (h c).2⟩)
    (Cert.ReferenceIdeal.Value.run (F := Ideal) m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
